-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x7168 : Shape := ⟨2, ![32, 7168]⟩
abbrev S16384x7168 : Shape := ⟨2, ![16384, 7168]⟩
abbrev S128x56 : Shape := ⟨2, ![128, 56]⟩
abbrev S_ : Shape := ⟨0, ![]⟩

class Facts : Prop where
  bcast_S_S32x7168 : S_.BroadcastsInDim S32x7168 (![] : Fin 0 → Fin S32x7168.rank)
  reducesTo_S32x7168_S_d0_1 : S32x7168.ReducesTo [0, 1] S_
  h_S_ : 0 < S_.numel
  bcast_S_S16384x7168 : S_.BroadcastsInDim S16384x7168 (![] : Fin 0 → Fin S16384x7168.rank)
  reducesTo_S16384x7168_S_d0_1 : S16384x7168.ReducesTo [0, 1] S_
  bcast_S_S128x56 : S_.BroadcastsInDim S128x56 (![] : Fin 0 → Fin S128x56.rank)
  reducesTo_S128x56_S_d0_1 : S128x56.ReducesTo [0, 1] S_

variable [Facts]

def fn {F : FTy → Type} [FloatOps F] (main_arg0 : FVec F S32x7168 .f32) (main_arg1 : FVec F S16384x7168 .f32) (main_arg2 : FVec F S128x56 .f32) : IVec S_ 1 :=
  let main_v0 : FVec F S32x7168 .f32 := Host.absf main_arg0
  let main_cst : FVec F S_ .f32 := constant S_ .f32 0x7F800000#32
  let main_v1 : FVec F S32x7168 .f32 := broadcastInDim S32x7168 ![] bcast_S_S32x7168 main_cst
  let main_v2 : IVec S32x7168 1 := cmpf .olt main_v0 main_v1
  let main_c : IVec S_ 1 := constantI S_ 1 1#1
  let main_v3 : IVec S_ 1 := (fun x v => Host.reduce IntOp.andi x v reducesTo_S32x7168_S_d0_1 h_S_) main_v2 main_c
  let main_v4 : FVec F S16384x7168 .f32 := Host.absf main_arg1
  let main_cst_0 : FVec F S_ .f32 := constant S_ .f32 0x7F800000#32
  let main_v5 : FVec F S16384x7168 .f32 := broadcastInDim S16384x7168 ![] bcast_S_S16384x7168 main_cst_0
  let main_v6 : IVec S16384x7168 1 := cmpf .olt main_v4 main_v5
  let main_c_1 : IVec S_ 1 := constantI S_ 1 1#1
  let main_v7 : IVec S_ 1 := (fun x v => Host.reduce IntOp.andi x v reducesTo_S16384x7168_S_d0_1 h_S_) main_v6 main_c_1
  let main_v8 : IVec S_ 1 := andi main_v3 main_v7
  let main_v9 : FVec F S128x56 .f32 := Host.absf main_arg2
  let main_cst_2 : FVec F S_ .f32 := constant S_ .f32 0x7F800000#32
  let main_v10 : FVec F S128x56 .f32 := broadcastInDim S128x56 ![] bcast_S_S128x56 main_cst_2
  let main_v11 : IVec S128x56 1 := cmpf .olt main_v9 main_v10
  let main_c_3 : IVec S_ 1 := constantI S_ 1 1#1
  let main_v12 : IVec S_ 1 := (fun x v => Host.reduce IntOp.andi x v reducesTo_S128x56_S_d0_1 h_S_) main_v11 main_c_3
  let main_v13 : IVec S_ 1 := andi main_v8 main_v12
  main_v13
-- ==== Kernel.lean ====
abbrev S32x7168 : Shape := ⟨2, ![32, 7168]⟩
abbrev S16384x7168 : Shape := ⟨2, ![16384, 7168]⟩
abbrev S128x56 : Shape := ⟨2, ![128, 56]⟩
abbrev S128x128x56 : Shape := ⟨3, ![128, 128, 56]⟩
abbrev S16384x56 : Shape := ⟨2, ![16384, 56]⟩
abbrev S32x16384 : Shape := ⟨2, ![32, 16384]⟩
abbrev S512x7168 : Shape := ⟨2, ![512, 7168]⟩
abbrev S512x56 : Shape := ⟨2, ![512, 56]⟩
abbrev S32x512 : Shape := ⟨2, ![32, 512]⟩
abbrev S512x128 : Shape := ⟨2, ![512, 128]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S32x7168, .f32⟩
  | .hbm, ⟨1, _⟩ => ⟨S16384x7168, .f32⟩
  | .hbm, ⟨2, _⟩ => ⟨S128x56, .f32⟩
  | .hbm, ⟨3, _⟩ => ⟨S128x128x56, .f32⟩
  | .hbm, ⟨4, _⟩ => ⟨S16384x56, .f32⟩
  | .hbm, ⟨5, _⟩ => ⟨S32x7168, .bf16⟩
  | .hbm, ⟨6, _⟩ => ⟨S32x16384, .f32⟩
  | .local _ .vmem, ⟨0, _⟩ => ⟨S32x7168, .bf16⟩
  | .local _ .vmem, ⟨1, _⟩ => ⟨S512x7168, .f32⟩
  | .local _ .vmem, ⟨2, _⟩ => ⟨S512x7168, .f32⟩
  | .local _ .vmem, ⟨3, _⟩ => ⟨S512x56, .f32⟩
  | .local _ .vmem, ⟨4, _⟩ => ⟨S512x56, .f32⟩
  | .local _ .vmem, ⟨5, _⟩ => ⟨S32x512, .f32⟩
  | .local _ .vmem, ⟨6, _⟩ => ⟨S32x512, .f32⟩
  | .local _ .vmem, ⟨7, _⟩ => ⟨S512x7168, .bf16⟩
  | _, _ => ⟨S32x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x7168 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S128x56_S128x128x56_0_2 : S128x56.BroadcastsInDim S128x128x56 (![0, 2] : Fin 2 → Fin S128x128x56.rank)
  shapeCasts_S128x128x56_S16384x56 : S128x128x56.ShapeCasts S16384x56
  bitsLt_bf16_f32 : FTy.bits .bf16 < FTy.bits .f32
  inb_S512x7168_S512x128_0_0 : ∀ a, (![0, 0] : Fin 2 → Nat) a + S512x128.size a ≤ S512x7168.size a
  h_S512x128 : 0 < S512x128.numel
  inb_S512x56_S512x1_0_0 : ∀ a, (![0, 0] : Fin 2 → Nat) a + S512x1.size a ≤ S512x56.size a
  h_S512x1 : 0 < S512x1.numel
  shapeCasts_S512x1_S512x1 : S512x1.ShapeCasts S512x1
  broadcasts_S512x1_S512x128 : S512x1.Broadcasts S512x128
  shapeCasts_S512x128_S512x128 : S512x128.ShapeCasts S512x128
  packedbf16_S512x7168_S512x128_0_0 : (Rect.unit (s := S512x7168) ![0, 0] S512x128.size inb_S512x7168_S512x128_0_0).PackedRows (EltTy.packing .bf16)
  inb_S512x7168_S512x128_0_128 : ∀ a, (![0, 128] : Fin 2 → Nat) a + S512x128.size a ≤ S512x7168.size a
  inb_S512x56_S512x1_0_1 : ∀ a, (![0, 1] : Fin 2 → Nat) a + S512x1.size a ≤ S512x56.size a
  packedbf16_S512x7168_S512x128_0_128 : (Rect.unit (s := S512x7168) ![0, 128] S512x128.size inb_S512x7168_S512x128_0_128).PackedRows (EltTy.packing .bf16)
  inb_S512x7168_S512x128_0_256 : ∀ a, (![0, 256] : Fin 2 → Nat) a + S512x128.size a ≤ S512x7168.size a
  inb_S512x56_S512x1_0_2 : ∀ a, (![0, 2] : Fin 2 → Nat) a + S512x1.size a ≤ S512x56.size a
  packedbf16_S512x7168_S512x128_0_256 : (Rect.unit (s := S512x7168) ![0, 256] S512x128.size inb_S512x7168_S512x128_0_256).PackedRows (EltTy.packing .bf16)
  inb_S512x7168_S512x128_0_384 : ∀ a, (![0, 384] : Fin 2 → Nat) a + S512x128.size a ≤ S512x7168.size a
  inb_S512x56_S512x1_0_3 : ∀ a, (![0, 3] : Fin 2 → Nat) a + S512x1.size a ≤ S512x56.size a
  packedbf16_S512x7168_S512x128_0_384 : (Rect.unit (s := S512x7168) ![0, 384] S512x128.size inb_S512x7168_S512x128_0_384).PackedRows (EltTy.packing .bf16)
  inb_S512x7168_S512x128_0_512 : ∀ a, (![0, 512] : Fin 2 → Nat) a + S512x128.size a ≤ S512x7168.size a
  inb_S512x56_S512x1_0_4 : ∀ a, (![0, 4] : Fin 2 → Nat) a + S512x1.size a ≤ S512x56.size a
  packedbf16_S512x7168_S512x128_0_512 : (Rect.unit (s := S512x7168) ![0, 512] S512x128.size inb_S512x7168_S512x128_0_512).PackedRows (EltTy.packing .bf16)
  inb_S512x7168_S512x128_0_640 : ∀ a, (![0, 640] : Fin 2 → Nat) a + S512x128.size a ≤ S512x7168.size a
  inb_S512x56_S512x1_0_5 : ∀ a, (![0, 5] : Fin 2 → Nat) a + S512x1.size a ≤ S512x56.size a
  packedbf16_S512x7168_S512x128_0_640 : (Rect.unit (s := S512x7168) ![0, 640] S512x128.size inb_S512x7168_S512x128_0_640).PackedRows (EltTy.packing .bf16)
  inb_S512x7168_S512x128_0_768 : ∀ a, (![0, 768] : Fin 2 → Nat) a + S512x128.size a ≤ S512x7168.size a
  inb_S512x56_S512x1_0_6 : ∀ a, (![0, 6] : Fin 2 → Nat) a + S512x1.size a ≤ S512x56.size a
  packedbf16_S512x7168_S512x128_0_768 : (Rect.unit (s := S512x7168) ![0, 768] S512x128.size inb_S512x7168_S512x128_0_768).PackedRows (EltTy.packing .bf16)
  inb_S512x7168_S512x128_0_896 : ∀ a, (![0, 896] : Fin 2 → Nat) a + S512x128.size a ≤ S512x7168.size a
  inb_S512x56_S512x1_0_7 : ∀ a, (![0, 7] : Fin 2 → Nat) a + S512x1.size a ≤ S512x56.size a
  packedbf16_S512x7168_S512x128_0_896 : (Rect.unit (s := S512x7168) ![0, 896] S512x128.size inb_S512x7168_S512x128_0_896).PackedRows (EltTy.packing .bf16)
  inb_S512x7168_S512x128_0_1024 : ∀ a, (![0, 1024] : Fin 2 → Nat) a + S512x128.size a ≤ S512x7168.size a
  inb_S512x56_S512x1_0_8 : ∀ a, (![0, 8] : Fin 2 → Nat) a + S512x1.size a ≤ S512x56.size a
  packedbf16_S512x7168_S512x128_0_1024 : (Rect.unit (s := S512x7168) ![0, 1024] S512x128.size inb_S512x7168_S512x128_0_1024).PackedRows (EltTy.packing .bf16)
  inb_S512x7168_S512x128_0_1152 : ∀ a, (![0, 1152] : Fin 2 → Nat) a + S512x128.size a ≤ S512x7168.size a
  inb_S512x56_S512x1_0_9 : ∀ a, (![0, 9] : Fin 2 → Nat) a + S512x1.size a ≤ S512x56.size a
  packedbf16_S512x7168_S512x128_0_1152 : (Rect.unit (s := S512x7168) ![0, 1152] S512x128.size inb_S512x7168_S512x128_0_1152).PackedRows (EltTy.packing .bf16)
  inb_S512x7168_S512x128_0_1280 : ∀ a, (![0, 1280] : Fin 2 → Nat) a + S512x128.size a ≤ S512x7168.size a
  inb_S512x56_S512x1_0_10 : ∀ a, (![0, 10] : Fin 2 → Nat) a + S512x1.size a ≤ S512x56.size a
  packedbf16_S512x7168_S512x128_0_1280 : (Rect.unit (s := S512x7168) ![0, 1280] S512x128.size inb_S512x7168_S512x128_0_1280).PackedRows (EltTy.packing .bf16)
  inb_S512x7168_S512x128_0_1408 : ∀ a, (![0, 1408] : Fin 2 → Nat) a + S512x128.size a ≤ S512x7168.size a
  inb_S512x56_S512x1_0_11 : ∀ a, (![0, 11] : Fin 2 → Nat) a + S512x1.size a ≤ S512x56.size a
  packedbf16_S512x7168_S512x128_0_1408 : (Rect.unit (s := S512x7168) ![0, 1408] S512x128.size inb_S512x7168_S512x128_0_1408).PackedRows (EltTy.packing .bf16)
  inb_S512x7168_S512x128_0_1536 : ∀ a, (![0, 1536] : Fin 2 → Nat) a + S512x128.size a ≤ S512x7168.size a
  inb_S512x56_S512x1_0_12 : ∀ a, (![0, 12] : Fin 2 → Nat) a + S512x1.size a ≤ S512x56.size a
  packedbf16_S512x7168_S512x128_0_1536 : (Rect.unit (s := S512x7168) ![0, 1536] S512x128.size inb_S512x7168_S512x128_0_1536).PackedRows (EltTy.packing .bf16)
  inb_S512x7168_S512x128_0_1664 : ∀ a, (![0, 1664] : Fin 2 → Nat) a + S512x128.size a ≤ S512x7168.size a
  inb_S512x56_S512x1_0_13 : ∀ a, (![0, 13] : Fin 2 → Nat) a + S512x1.size a ≤ S512x56.size a
  packedbf16_S512x7168_S512x128_0_1664 : (Rect.unit (s := S512x7168) ![0, 1664] S512x128.size inb_S512x7168_S512x128_0_1664).PackedRows (EltTy.packing .bf16)
  inb_S512x7168_S512x128_0_1792 : ∀ a, (![0, 1792] : Fin 2 → Nat) a + S512x128.size a ≤ S512x7168.size a
  inb_S512x56_S512x1_0_14 : ∀ a, (![0, 14] : Fin 2 → Nat) a + S512x1.size a ≤ S512x56.size a
  packedbf16_S512x7168_S512x128_0_1792 : (Rect.unit (s := S512x7168) ![0, 1792] S512x128.size inb_S512x7168_S512x128_0_1792).PackedRows (EltTy.packing .bf16)
  inb_S512x7168_S512x128_0_1920 : ∀ a, (![0, 1920] : Fin 2 → Nat) a + S512x128.size a ≤ S512x7168.size a
  inb_S512x56_S512x1_0_15 : ∀ a, (![0, 15] : Fin 2 → Nat) a + S512x1.size a ≤ S512x56.size a
  packedbf16_S512x7168_S512x128_0_1920 : (Rect.unit (s := S512x7168) ![0, 1920] S512x128.size inb_S512x7168_S512x128_0_1920).PackedRows (EltTy.packing .bf16)
  inb_S512x7168_S512x128_0_2048 : ∀ a, (![0, 2048] : Fin 2 → Nat) a + S512x128.size a ≤ S512x7168.size a
  inb_S512x56_S512x1_0_16 : ∀ a, (![0, 16] : Fin 2 → Nat) a + S512x1.size a ≤ S512x56.size a
  packedbf16_S512x7168_S512x128_0_2048 : (Rect.unit (s := S512x7168) ![0, 2048] S512x128.size inb_S512x7168_S512x128_0_2048).PackedRows (EltTy.packing .bf16)
  inb_S512x7168_S512x128_0_2176 : ∀ a, (![0, 2176] : Fin 2 → Nat) a + S512x128.size a ≤ S512x7168.size a
  inb_S512x56_S512x1_0_17 : ∀ a, (![0, 17] : Fin 2 → Nat) a + S512x1.size a ≤ S512x56.size a
  packedbf16_S512x7168_S512x128_0_2176 : (Rect.unit (s := S512x7168) ![0, 2176] S512x128.size inb_S512x7168_S512x128_0_2176).PackedRows (EltTy.packing .bf16)
  inb_S512x7168_S512x128_0_2304 : ∀ a, (![0, 2304] : Fin 2 → Nat) a + S512x128.size a ≤ S512x7168.size a
  inb_S512x56_S512x1_0_18 : ∀ a, (![0, 18] : Fin 2 → Nat) a + S512x1.size a ≤ S512x56.size a
  packedbf16_S512x7168_S512x128_0_2304 : (Rect.unit (s := S512x7168) ![0, 2304] S512x128.size inb_S512x7168_S512x128_0_2304).PackedRows (EltTy.packing .bf16)
  inb_S512x7168_S512x128_0_2432 : ∀ a, (![0, 2432] : Fin 2 → Nat) a + S512x128.size a ≤ S512x7168.size a
  inb_S512x56_S512x1_0_19 : ∀ a, (![0, 19] : Fin 2 → Nat) a + S512x1.size a ≤ S512x56.size a
  packedbf16_S512x7168_S512x128_0_2432 : (Rect.unit (s := S512x7168) ![0, 2432] S512x128.size inb_S512x7168_S512x128_0_2432).PackedRows (EltTy.packing .bf16)
  inb_S512x7168_S512x128_0_2560 : ∀ a, (![0, 2560] : Fin 2 → Nat) a + S512x128.size a ≤ S512x7168.size a
  inb_S512x56_S512x1_0_20 : ∀ a, (![0, 20] : Fin 2 → Nat) a + S512x1.size a ≤ S512x56.size a
  packedbf16_S512x7168_S512x128_0_2560 : (Rect.unit (s := S512x7168) ![0, 2560] S512x128.size inb_S512x7168_S512x128_0_2560).PackedRows (EltTy.packing .bf16)
  inb_S512x7168_S512x128_0_2688 : ∀ a, (![0, 2688] : Fin 2 → Nat) a + S512x128.size a ≤ S512x7168.size a
  inb_S512x56_S512x1_0_21 : ∀ a, (![0, 21] : Fin 2 → Nat) a + S512x1.size a ≤ S512x56.size a
  packedbf16_S512x7168_S512x128_0_2688 : (Rect.unit (s := S512x7168) ![0, 2688] S512x128.size inb_S512x7168_S512x128_0_2688).PackedRows (EltTy.packing .bf16)
  inb_S512x7168_S512x128_0_2816 : ∀ a, (![0, 2816] : Fin 2 → Nat) a + S512x128.size a ≤ S512x7168.size a
  inb_S512x56_S512x1_0_22 : ∀ a, (![0, 22] : Fin 2 → Nat) a + S512x1.size a ≤ S512x56.size a
  packedbf16_S512x7168_S512x128_0_2816 : (Rect.unit (s := S512x7168) ![0, 2816] S512x128.size inb_S512x7168_S512x128_0_2816).PackedRows (EltTy.packing .bf16)
  inb_S512x7168_S512x128_0_2944 : ∀ a, (![0, 2944] : Fin 2 → Nat) a + S512x128.size a ≤ S512x7168.size a
  inb_S512x56_S512x1_0_23 : ∀ a, (![0, 23] : Fin 2 → Nat) a + S512x1.size a ≤ S512x56.size a
  packedbf16_S512x7168_S512x128_0_2944 : (Rect.unit (s := S512x7168) ![0, 2944] S512x128.size inb_S512x7168_S512x128_0_2944).PackedRows (EltTy.packing .bf16)
  inb_S512x7168_S512x128_0_3072 : ∀ a, (![0, 3072] : Fin 2 → Nat) a + S512x128.size a ≤ S512x7168.size a
  inb_S512x56_S512x1_0_24 : ∀ a, (![0, 24] : Fin 2 → Nat) a + S512x1.size a ≤ S512x56.size a
  packedbf16_S512x7168_S512x128_0_3072 : (Rect.unit (s := S512x7168) ![0, 3072] S512x128.size inb_S512x7168_S512x128_0_3072).PackedRows (EltTy.packing .bf16)
  inb_S512x7168_S512x128_0_3200 : ∀ a, (![0, 3200] : Fin 2 → Nat) a + S512x128.size a ≤ S512x7168.size a
  inb_S512x56_S512x1_0_25 : ∀ a, (![0, 25] : Fin 2 → Nat) a + S512x1.size a ≤ S512x56.size a
  packedbf16_S512x7168_S512x128_0_3200 : (Rect.unit (s := S512x7168) ![0, 3200] S512x128.size inb_S512x7168_S512x128_0_3200).PackedRows (EltTy.packing .bf16)
  inb_S512x7168_S512x128_0_3328 : ∀ a, (![0, 3328] : Fin 2 → Nat) a + S512x128.size a ≤ S512x7168.size a
  inb_S512x56_S512x1_0_26 : ∀ a, (![0, 26] : Fin 2 → Nat) a + S512x1.size a ≤ S512x56.size a
  packedbf16_S512x7168_S512x128_0_3328 : (Rect.unit (s := S512x7168) ![0, 3328] S512x128.size inb_S512x7168_S512x128_0_3328).PackedRows (EltTy.packing .bf16)
  inb_S512x7168_S512x128_0_3456 : ∀ a, (![0, 3456] : Fin 2 → Nat) a + S512x128.size a ≤ S512x7168.size a
  inb_S512x56_S512x1_0_27 : ∀ a, (![0, 27] : Fin 2 → Nat) a + S512x1.size a ≤ S512x56.size a
  packedbf16_S512x7168_S512x128_0_3456 : (Rect.unit (s := S512x7168) ![0, 3456] S512x128.size inb_S512x7168_S512x128_0_3456).PackedRows (EltTy.packing .bf16)
  inb_S512x7168_S512x128_0_3584 : ∀ a, (![0, 3584] : Fin 2 → Nat) a + S512x128.size a ≤ S512x7168.size a
  inb_S512x56_S512x1_0_28 : ∀ a, (![0, 28] : Fin 2 → Nat) a + S512x1.size a ≤ S512x56.size a
  packedbf16_S512x7168_S512x128_0_3584 : (Rect.unit (s := S512x7168) ![0, 3584] S512x128.size inb_S512x7168_S512x128_0_3584).PackedRows (EltTy.packing .bf16)
  inb_S512x7168_S512x128_0_3712 : ∀ a, (![0, 3712] : Fin 2 → Nat) a + S512x128.size a ≤ S512x7168.size a
  inb_S512x56_S512x1_0_29 : ∀ a, (![0, 29] : Fin 2 → Nat) a + S512x1.size a ≤ S512x56.size a
  packedbf16_S512x7168_S512x128_0_3712 : (Rect.unit (s := S512x7168) ![0, 3712] S512x128.size inb_S512x7168_S512x128_0_3712).PackedRows (EltTy.packing .bf16)
  inb_S512x7168_S512x128_0_3840 : ∀ a, (![0, 3840] : Fin 2 → Nat) a + S512x128.size a ≤ S512x7168.size a
  inb_S512x56_S512x1_0_30 : ∀ a, (![0, 30] : Fin 2 → Nat) a + S512x1.size a ≤ S512x56.size a
  packedbf16_S512x7168_S512x128_0_3840 : (Rect.unit (s := S512x7168) ![0, 3840] S512x128.size inb_S512x7168_S512x128_0_3840).PackedRows (EltTy.packing .bf16)
  inb_S512x7168_S512x128_0_3968 : ∀ a, (![0, 3968] : Fin 2 → Nat) a + S512x128.size a ≤ S512x7168.size a
  inb_S512x56_S512x1_0_31 : ∀ a, (![0, 31] : Fin 2 → Nat) a + S512x1.size a ≤ S512x56.size a
  packedbf16_S512x7168_S512x128_0_3968 : (Rect.unit (s := S512x7168) ![0, 3968] S512x128.size inb_S512x7168_S512x128_0_3968).PackedRows (EltTy.packing .bf16)
  inb_S512x7168_S512x128_0_4096 : ∀ a, (![0, 4096] : Fin 2 → Nat) a + S512x128.size a ≤ S512x7168.size a
  inb_S512x56_S512x1_0_32 : ∀ a, (![0, 32] : Fin 2 → Nat) a + S512x1.size a ≤ S512x56.size a
  packedbf16_S512x7168_S512x128_0_4096 : (Rect.unit (s := S512x7168) ![0, 4096] S512x128.size inb_S512x7168_S512x128_0_4096).PackedRows (EltTy.packing .bf16)
  inb_S512x7168_S512x128_0_4224 : ∀ a, (![0, 4224] : Fin 2 → Nat) a + S512x128.size a ≤ S512x7168.size a
  inb_S512x56_S512x1_0_33 : ∀ a, (![0, 33] : Fin 2 → Nat) a + S512x1.size a ≤ S512x56.size a
  packedbf16_S512x7168_S512x128_0_4224 : (Rect.unit (s := S512x7168) ![0, 4224] S512x128.size inb_S512x7168_S512x128_0_4224).PackedRows (EltTy.packing .bf16)
  inb_S512x7168_S512x128_0_4352 : ∀ a, (![0, 4352] : Fin 2 → Nat) a + S512x128.size a ≤ S512x7168.size a
  inb_S512x56_S512x1_0_34 : ∀ a, (![0, 34] : Fin 2 → Nat) a + S512x1.size a ≤ S512x56.size a
  packedbf16_S512x7168_S512x128_0_4352 : (Rect.unit (s := S512x7168) ![0, 4352] S512x128.size inb_S512x7168_S512x128_0_4352).PackedRows (EltTy.packing .bf16)
  inb_S512x7168_S512x128_0_4480 : ∀ a, (![0, 4480] : Fin 2 → Nat) a + S512x128.size a ≤ S512x7168.size a
  inb_S512x56_S512x1_0_35 : ∀ a, (![0, 35] : Fin 2 → Nat) a + S512x1.size a ≤ S512x56.size a
  packedbf16_S512x7168_S512x128_0_4480 : (Rect.unit (s := S512x7168) ![0, 4480] S512x128.size inb_S512x7168_S512x128_0_4480).PackedRows (EltTy.packing .bf16)
  inb_S512x7168_S512x128_0_4608 : ∀ a, (![0, 4608] : Fin 2 → Nat) a + S512x128.size a ≤ S512x7168.size a
  inb_S512x56_S512x1_0_36 : ∀ a, (![0, 36] : Fin 2 → Nat) a + S512x1.size a ≤ S512x56.size a
  packedbf16_S512x7168_S512x128_0_4608 : (Rect.unit (s := S512x7168) ![0, 4608] S512x128.size inb_S512x7168_S512x128_0_4608).PackedRows (EltTy.packing .bf16)
  inb_S512x7168_S512x128_0_4736 : ∀ a, (![0, 4736] : Fin 2 → Nat) a + S512x128.size a ≤ S512x7168.size a
  inb_S512x56_S512x1_0_37 : ∀ a, (![0, 37] : Fin 2 → Nat) a + S512x1.size a ≤ S512x56.size a
  packedbf16_S512x7168_S512x128_0_4736 : (Rect.unit (s := S512x7168) ![0, 4736] S512x128.size inb_S512x7168_S512x128_0_4736).PackedRows (EltTy.packing .bf16)
  inb_S512x7168_S512x128_0_4864 : ∀ a, (![0, 4864] : Fin 2 → Nat) a + S512x128.size a ≤ S512x7168.size a
  inb_S512x56_S512x1_0_38 : ∀ a, (![0, 38] : Fin 2 → Nat) a + S512x1.size a ≤ S512x56.size a
  packedbf16_S512x7168_S512x128_0_4864 : (Rect.unit (s := S512x7168) ![0, 4864] S512x128.size inb_S512x7168_S512x128_0_4864).PackedRows (EltTy.packing .bf16)
  inb_S512x7168_S512x128_0_4992 : ∀ a, (![0, 4992] : Fin 2 → Nat) a + S512x128.size a ≤ S512x7168.size a
  inb_S512x56_S512x1_0_39 : ∀ a, (![0, 39] : Fin 2 → Nat) a + S512x1.size a ≤ S512x56.size a
  packedbf16_S512x7168_S512x128_0_4992 : (Rect.unit (s := S512x7168) ![0, 4992] S512x128.size inb_S512x7168_S512x128_0_4992).PackedRows (EltTy.packing .bf16)
  inb_S512x7168_S512x128_0_5120 : ∀ a, (![0, 5120] : Fin 2 → Nat) a + S512x128.size a ≤ S512x7168.size a
  inb_S512x56_S512x1_0_40 : ∀ a, (![0, 40] : Fin 2 → Nat) a + S512x1.size a ≤ S512x56.size a
  packedbf16_S512x7168_S512x128_0_5120 : (Rect.unit (s := S512x7168) ![0, 5120] S512x128.size inb_S512x7168_S512x128_0_5120).PackedRows (EltTy.packing .bf16)
  inb_S512x7168_S512x128_0_5248 : ∀ a, (![0, 5248] : Fin 2 → Nat) a + S512x128.size a ≤ S512x7168.size a
  inb_S512x56_S512x1_0_41 : ∀ a, (![0, 41] : Fin 2 → Nat) a + S512x1.size a ≤ S512x56.size a
  packedbf16_S512x7168_S512x128_0_5248 : (Rect.unit (s := S512x7168) ![0, 5248] S512x128.size inb_S512x7168_S512x128_0_5248).PackedRows (EltTy.packing .bf16)
  inb_S512x7168_S512x128_0_5376 : ∀ a, (![0, 5376] : Fin 2 → Nat) a + S512x128.size a ≤ S512x7168.size a
  inb_S512x56_S512x1_0_42 : ∀ a, (![0, 42] : Fin 2 → Nat) a + S512x1.size a ≤ S512x56.size a
  packedbf16_S512x7168_S512x128_0_5376 : (Rect.unit (s := S512x7168) ![0, 5376] S512x128.size inb_S512x7168_S512x128_0_5376).PackedRows (EltTy.packing .bf16)
  inb_S512x7168_S512x128_0_5504 : ∀ a, (![0, 5504] : Fin 2 → Nat) a + S512x128.size a ≤ S512x7168.size a
  inb_S512x56_S512x1_0_43 : ∀ a, (![0, 43] : Fin 2 → Nat) a + S512x1.size a ≤ S512x56.size a
  packedbf16_S512x7168_S512x128_0_5504 : (Rect.unit (s := S512x7168) ![0, 5504] S512x128.size inb_S512x7168_S512x128_0_5504).PackedRows (EltTy.packing .bf16)
  inb_S512x7168_S512x128_0_5632 : ∀ a, (![0, 5632] : Fin 2 → Nat) a + S512x128.size a ≤ S512x7168.size a
  inb_S512x56_S512x1_0_44 : ∀ a, (![0, 44] : Fin 2 → Nat) a + S512x1.size a ≤ S512x56.size a
  packedbf16_S512x7168_S512x128_0_5632 : (Rect.unit (s := S512x7168) ![0, 5632] S512x128.size inb_S512x7168_S512x128_0_5632).PackedRows (EltTy.packing .bf16)
  inb_S512x7168_S512x128_0_5760 : ∀ a, (![0, 5760] : Fin 2 → Nat) a + S512x128.size a ≤ S512x7168.size a
  inb_S512x56_S512x1_0_45 : ∀ a, (![0, 45] : Fin 2 → Nat) a + S512x1.size a ≤ S512x56.size a
  packedbf16_S512x7168_S512x128_0_5760 : (Rect.unit (s := S512x7168) ![0, 5760] S512x128.size inb_S512x7168_S512x128_0_5760).PackedRows (EltTy.packing .bf16)
  inb_S512x7168_S512x128_0_5888 : ∀ a, (![0, 5888] : Fin 2 → Nat) a + S512x128.size a ≤ S512x7168.size a
  inb_S512x56_S512x1_0_46 : ∀ a, (![0, 46] : Fin 2 → Nat) a + S512x1.size a ≤ S512x56.size a
  packedbf16_S512x7168_S512x128_0_5888 : (Rect.unit (s := S512x7168) ![0, 5888] S512x128.size inb_S512x7168_S512x128_0_5888).PackedRows (EltTy.packing .bf16)
  inb_S512x7168_S512x128_0_6016 : ∀ a, (![0, 6016] : Fin 2 → Nat) a + S512x128.size a ≤ S512x7168.size a
  inb_S512x56_S512x1_0_47 : ∀ a, (![0, 47] : Fin 2 → Nat) a + S512x1.size a ≤ S512x56.size a
  packedbf16_S512x7168_S512x128_0_6016 : (Rect.unit (s := S512x7168) ![0, 6016] S512x128.size inb_S512x7168_S512x128_0_6016).PackedRows (EltTy.packing .bf16)
  inb_S512x7168_S512x128_0_6144 : ∀ a, (![0, 6144] : Fin 2 → Nat) a + S512x128.size a ≤ S512x7168.size a
  inb_S512x56_S512x1_0_48 : ∀ a, (![0, 48] : Fin 2 → Nat) a + S512x1.size a ≤ S512x56.size a
  packedbf16_S512x7168_S512x128_0_6144 : (Rect.unit (s := S512x7168) ![0, 6144] S512x128.size inb_S512x7168_S512x128_0_6144).PackedRows (EltTy.packing .bf16)
  inb_S512x7168_S512x128_0_6272 : ∀ a, (![0, 6272] : Fin 2 → Nat) a + S512x128.size a ≤ S512x7168.size a
  inb_S512x56_S512x1_0_49 : ∀ a, (![0, 49] : Fin 2 → Nat) a + S512x1.size a ≤ S512x56.size a
  packedbf16_S512x7168_S512x128_0_6272 : (Rect.unit (s := S512x7168) ![0, 6272] S512x128.size inb_S512x7168_S512x128_0_6272).PackedRows (EltTy.packing .bf16)
  inb_S512x7168_S512x128_0_6400 : ∀ a, (![0, 6400] : Fin 2 → Nat) a + S512x128.size a ≤ S512x7168.size a
  inb_S512x56_S512x1_0_50 : ∀ a, (![0, 50] : Fin 2 → Nat) a + S512x1.size a ≤ S512x56.size a
  packedbf16_S512x7168_S512x128_0_6400 : (Rect.unit (s := S512x7168) ![0, 6400] S512x128.size inb_S512x7168_S512x128_0_6400).PackedRows (EltTy.packing .bf16)
  inb_S512x7168_S512x128_0_6528 : ∀ a, (![0, 6528] : Fin 2 → Nat) a + S512x128.size a ≤ S512x7168.size a
  inb_S512x56_S512x1_0_51 : ∀ a, (![0, 51] : Fin 2 → Nat) a + S512x1.size a ≤ S512x56.size a
  packedbf16_S512x7168_S512x128_0_6528 : (Rect.unit (s := S512x7168) ![0, 6528] S512x128.size inb_S512x7168_S512x128_0_6528).PackedRows (EltTy.packing .bf16)
  inb_S512x7168_S512x128_0_6656 : ∀ a, (![0, 6656] : Fin 2 → Nat) a + S512x128.size a ≤ S512x7168.size a
  inb_S512x56_S512x1_0_52 : ∀ a, (![0, 52] : Fin 2 → Nat) a + S512x1.size a ≤ S512x56.size a
  packedbf16_S512x7168_S512x128_0_6656 : (Rect.unit (s := S512x7168) ![0, 6656] S512x128.size inb_S512x7168_S512x128_0_6656).PackedRows (EltTy.packing .bf16)
  inb_S512x7168_S512x128_0_6784 : ∀ a, (![0, 6784] : Fin 2 → Nat) a + S512x128.size a ≤ S512x7168.size a
  inb_S512x56_S512x1_0_53 : ∀ a, (![0, 53] : Fin 2 → Nat) a + S512x1.size a ≤ S512x56.size a
  packedbf16_S512x7168_S512x128_0_6784 : (Rect.unit (s := S512x7168) ![0, 6784] S512x128.size inb_S512x7168_S512x128_0_6784).PackedRows (EltTy.packing .bf16)
  inb_S512x7168_S512x128_0_6912 : ∀ a, (![0, 6912] : Fin 2 → Nat) a + S512x128.size a ≤ S512x7168.size a
  inb_S512x56_S512x1_0_54 : ∀ a, (![0, 54] : Fin 2 → Nat) a + S512x1.size a ≤ S512x56.size a
  packedbf16_S512x7168_S512x128_0_6912 : (Rect.unit (s := S512x7168) ![0, 6912] S512x128.size inb_S512x7168_S512x128_0_6912).PackedRows (EltTy.packing .bf16)
  inb_S512x7168_S512x128_0_7040 : ∀ a, (![0, 7040] : Fin 2 → Nat) a + S512x128.size a ≤ S512x7168.size a
  inb_S512x56_S512x1_0_55 : ∀ a, (![0, 55] : Fin 2 → Nat) a + S512x1.size a ≤ S512x56.size a
  packedbf16_S512x7168_S512x128_0_7040 : (Rect.unit (s := S512x7168) ![0, 7040] S512x128.size inb_S512x7168_S512x128_0_7040).PackedRows (EltTy.packing .bf16)
  inb_S32x7168_S32x7168_0_0 : ∀ a, (![0, 0] : Fin 2 → Nat) a + S32x7168.size a ≤ S32x7168.size a
  h_S32x7168 : 0 < S32x7168.numel
  shapeCasts_S32x7168_S32x7168 : S32x7168.ShapeCasts S32x7168
  inb_S512x7168_S512x7168_0_0 : ∀ a, (![0, 0] : Fin 2 → Nat) a + S512x7168.size a ≤ S512x7168.size a
  h_S512x7168 : 0 < S512x7168.numel
  inb_S32x512_S32x512_0_0 : ∀ a, (![0, 0] : Fin 2 → Nat) a + S32x512.size a ≤ S32x512.size a
  h_S32x512 : 0 < S32x512.numel
  dot_S32x7168_S512x7168_S32x512_1_1_0_0_n_n_wf : DotDims.WF S32x7168 S512x7168 S32x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x7168.size a ≤ S32x7168.size a
  hwx0_0 : ∀ i : grid0.Coords, EltTy.bits .bf16 = 32 ∨ (Rect.block (s := S32x7168) S32x7168.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x7168.size a ≤ S16384x7168.size a
  hwx0_1 : ∀ i : grid0.Coords, EltTy.bits .f32 = 32 ∨ (Rect.block (s := S16384x7168) S512x7168.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x56.size a ≤ S16384x56.size a
  hwx0_2 : ∀ i : grid0.Coords, EltTy.bits .f32 = 32 ∨ (Rect.block (s := S16384x56) S512x56.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x16384.size a
  hwx0_3 : ∀ i : grid0.Coords, EltTy.bits .f32 = 32 ∨ (Rect.block (s := S32x16384) S32x512.size (cc0_transform_3 i) (hinb0_3 i)).WholeWords (EltTy.packing .f32)

variable [Facts₀]

def dot_S32x7168_S512x7168_S32x512_1_1_0_0_n_n : DotDims S32x7168 S512x7168 S32x512 where
  lhsContracting := [1]
  rhsContracting := [1]
  lhsNonContracting := [0]
  rhsNonContracting := [0]
  lhsBatch := []
  rhsBatch := []
  wf := dot_S32x7168_S512x7168_S32x512_1_1_0_0_n_n_wf

abbrev win0_0 : Pipeline.Window sig grid0 :=
  Pipeline.Window.ofSpec (Memref.whole main_v2) S32x7168.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x7168.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x56.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x7168 : Shape := ⟨2, ![32, 7168]⟩
abbrev S16384x7168 : Shape := ⟨2, ![16384, 7168]⟩
abbrev S128x56 : Shape := ⟨2, ![128, 56]⟩
abbrev S128x128x56x128 : Shape := ⟨4, ![128, 128, 56, 128]⟩
abbrev S128x1x56x1 : Shape := ⟨4, ![128, 1, 56, 1]⟩
abbrev S32x16384 : Shape := ⟨2, ![32, 16384]⟩

abbrev nBuf : Space → Nat
  | .hbm => 9
  | .vmem => 0
  | .smem => 0
  | _ => 0

abbrev bufTy : (tb : Table) → Fin (tcTables nBuf tb) → BufTy
  | .hbm, ⟨0, _⟩ => ⟨S32x7168, .f32⟩
  | .hbm, ⟨1, _⟩ => ⟨S16384x7168, .f32⟩
  | .hbm, ⟨2, _⟩ => ⟨S128x56, .f32⟩
  | .hbm, ⟨3, _⟩ => ⟨S128x128x56x128, .f32⟩
  | .hbm, ⟨4, _⟩ => ⟨S128x1x56x1, .f32⟩
  | .hbm, ⟨5, _⟩ => ⟨S128x128x56x128, .f32⟩
  | .hbm, ⟨6, _⟩ => ⟨S128x128x56x128, .f32⟩
  | .hbm, ⟨7, _⟩ => ⟨S16384x7168, .f32⟩
  | .hbm, ⟨8, _⟩ => ⟨S32x16384, .f32⟩
  | _, _ => ⟨S32x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S16384x7168_S128x128x56x128 : S16384x7168.ShapeCasts S128x128x56x128
  bcast_S128x56_S128x1x56x1_0_2 : S128x56.BroadcastsInDim S128x1x56x1 (![0, 2] : Fin 2 → Fin S128x1x56x1.rank)
  bcast_S128x1x56x1_S128x128x56x128_0_1_2_3 : S128x1x56x1.BroadcastsInDim S128x128x56x128 (![0, 1, 2, 3] : Fin 4 → Fin S128x128x56x128.rank)
  shapeCasts_S128x128x56x128_S16384x7168 : S128x128x56x128.ShapeCasts S16384x7168
  dot_S32x7168_S16384x7168_S32x16384_1_1_0_0_n_n_wf : DotDims.WF S32x7168 S16384x7168 S32x16384 [1] [1] [0] [0] [] []

variable [Facts₀]

def dot_S32x7168_S16384x7168_S32x16384_1_1_0_0_n_n : DotDims S32x7168 S16384x7168 S32x16384 where
  lhsContracting := [1]
  rhsContracting := [1]
  lhsNonContracting := [0]
  rhsNonContracting := [0]
  lhsBatch := []
  rhsBatch := []
  wf := dot_S32x7168_S16384x7168_S32x16384_1_1_0_0_n_n_wf

class Facts : Prop extends Facts₀ where

variable [Facts]
-- ==== Proof.DequantSpec.lean ====
/-
  The block-dequantized linear map, stated once as a function of the three argument arrays.

  The weight `w` is 16384 × 7168 and the scale table `s` is 128 × 56: entry (o, k) of the weight lies in the
  128 × 128 tile (o / 128, k / 128), and the dequantized weight is `w (o, k) · s (o / 128, k / 128)`. The map sends
  the 32 × 7168 input `x` to the 32 × 16384 array whose entry (p, o) is the sum over k of
  `x (p, k) · (w (o, k) · s (o / 128, k / 128))`.

  Both programs compute exactly this sum, the factors of every term in this order, so no law of the extended reals
  beyond the reading of each side is needed to join them.
-/
import Idealize.ShloMosaic.PureOps.Ideal
import Idealize.ShloMosaic.Lib.ValueIdx

noncomputable section

namespace Cert.DequantSpec

open Idealize.ShloMosaic Idealize.ShloMosaic.ValueIdx

/-- The row of the scale table that scales weight row `o`. -/
def rowTile (o : Fin 16384) : Fin 128 := ⟨o.val / 128, by have := o.isLt; omega⟩

/-- The column of the scale table that scales weight column `k`. -/
def colTile (k : Fin 7168) : Fin 56 := ⟨k.val / 128, by have := k.isLt; omega⟩

/-- The dequantized weight at row `o`, column `k`. -/
def scaled (w : (⟨2, ![16384, 7168]⟩ : Shape).Idx → EReal) (s : (⟨2, ![128, 56]⟩ : Shape).Idx → EReal)
    (o : Fin 16384) (k : Fin 7168) : EReal :=
  w (ix2 o k) * s (ix2 (rowTile o) (colTile k))

/-- The linear map: entry (p, o) is the sum over k of `x (p, k)` times the dequantized weight at (o, k). -/
def linear (x : (⟨2, ![32, 7168]⟩ : Shape).Idx → EReal) (w : (⟨2, ![16384, 7168]⟩ : Shape).Idx → EReal)
    (s : (⟨2, ![128, 56]⟩ : Shape).Idx → EReal) : (⟨2, ![32, 16384]⟩ : Shape).Idx → EReal :=
  fun j => ∑ k : Fin 7168, x (ix2 (j 0) k) * scaled w s (j 1) k

end Cert.DequantSpec

end
-- ==== Proof.ReferenceIsLinear.lean ====
/-
  The reference computes the block-dequantized linear map.

  The reference views the weight as 128 × 128 × 56 × 128 (row tile, row in tile, column tile, column in tile),
  multiplies by the scale table spread over the two in-tile axes, folds the product back to 16384 × 7168 and
  contracts it with the input over the 7168 columns. Folding back undoes the first view, so entry (o, k) of the
  product is `w (o, k)` times the scale at (row tile of o, column tile of k): three index equations, each an
  identity of quotients and remainders by 128, 56 and 7168.
-/
import proofs.«127336_j18004502905034_2_alg».proof.Proof.Gen.ReferenceIdeal.Read
import proofs.«127336_j18004502905034_2_alg».proof.Proof.DequantSpec

noncomputable section

namespace Cert.ReferenceIdeal.RefValue

open Cert.ReferenceIdeal Cert.ReferenceIdeal.Gen Cert.ReferenceIdeal.Read
open Idealize.ShloMosaic Idealize.ShloMosaic.ValueIdx Cert.DequantSpec

/-- The input is read at (p, k). -/
theorem input_idx (i : S32x16384.Idx) (k : Fin 7168) : lidx_main_v5 i k = ix2 (i 0) k :=
  funext fun a => Fin.ext (by match a with | ⟨0, _⟩ => rfl | ⟨1, _⟩ => rfl)

/-- Viewing the weight in tiles and folding back reads it at (o, k). -/
theorem weight_idx (i : S32x16384.Idx) (k : Fin 7168) :
    idx_main_v0 (idx_main_v4 (ridx_main_v5 i k)) = ix2 (i 1) k :=
  funext fun a => Fin.ext (by
    have h1 : (i 1).val < 16384 := (i 1).isLt
    have hk : k.val < 7168 := k.isLt
    match a with
    | ⟨0, _⟩ => dsimp only [idx_main_v0, idx_main_v4, ridx_main_v5, ix2]; omega
    | ⟨1, _⟩ => dsimp only [idx_main_v0, idx_main_v4, ridx_main_v5, ix2]; omega)

/-- The scale spread over a tile is read at (row tile of o, column tile of k). -/
theorem scale_idx (i : S32x16384.Idx) (k : Fin 7168) :
    idx_main_v1 (idx_main_v2 (idx_main_v4 (ridx_main_v5 i k))) = ix2 (rowTile (i 1)) (colTile k) :=
  funext fun a => Fin.ext (by
    have h1 : (i 1).val < 16384 := (i 1).isLt
    have hk : k.val < 7168 := k.isLt
    match a with
    | ⟨0, _⟩ => dsimp only [idx_main_v1, idx_main_v2, idx_main_v4, ridx_main_v5, ix2, rowTile, colTile]; omega
    | ⟨1, _⟩ => dsimp only [idx_main_v1, idx_main_v2, idx_main_v4, ridx_main_v5, ix2, rowTile, colTile]; omega)

/-- The reference's result is the linear map of its three arguments. -/
theorem reference_eq (x0 : (⟨S32x7168, .f32⟩ : BufTy).Contents (Elt Ideal)) (x1 : (⟨S16384x7168, .f32⟩ : BufTy).Contents (Elt Ideal))
    (x2 : (⟨S128x56, .f32⟩ : BufTy).Contents (Elt Ideal)) :
    val_main_v5 (F := Ideal) x0 x1 x2 = linear x0 x1 x2 := by
  funext i
  rw [val_main_v5_apply]
  refine Finset.sum_congr rfl fun k _ => ?_
  rw [val_main_v4_apply, val_main_v3_apply, val_main_v0_apply, val_main_v2_apply, val_main_v1_apply,
    input_idx, weight_idx, scale_idx]
  rfl

end Cert.ReferenceIdeal.RefValue

end
-- ==== Proof.LibLoadAt.lean ====
/-
  Two facts about loads through rectangles of unit strides, for any shapes and any family of element values.

  `ld_at`: a load through the rectangle with offsets `off` and sizes `[a, b]` of a rank-2 array, read at (s, l), is the
  array at (off 0 + s, off 1 + l).
  `readAt_whole`: a load through the whole-shape rectangle at zero offsets of a whole buffer holding `x` reads `x`.
-/
import Idealize.ShloMosaic.Lib.Pipeline.FrameBody
import Idealize.ShloMosaic.Lib.Pipeline.Value
import Idealize.ShloMosaic.Lib.ValueIdx

noncomputable section

namespace Cert.Lib

open Idealize.ShloMosaic Idealize.ShloMosaic.ValueIdx

/-- A load through a rectangle of unit strides, read at an index: the contents at the index shifted by the offsets. -/
theorem ld_at {Val : EltTy → Type} {A B a b : Nat} {e : EltTy} (X : (⟨2, ![A, B]⟩ : Shape).Idx → Val e) (off : Fin 2 → Nat)
    (inb : ∀ x, off x + (![a, b] : Fin 2 → Nat) x ≤ (⟨2, ![A, B]⟩ : Shape).size x) (s : Fin a) (l : Fin b)
    (R : Fin A) (Q : Fin B) (h0 : R.val = off 0 + s.val) (h1 : Q.val = off 1 + l.val) :
    View.ld X (Rect.unit (s := ⟨2, ![A, B]⟩) off ![a, b] inb) (ix2 s l) = X (ix2 R Q) := by
  show X ((Rect.unit (s := ⟨2, ![A, B]⟩) off ![a, b] inb).idx (ix2 s l)) = X (ix2 R Q)
  congr 1; funext d; apply Fin.ext
  match d with
  | ⟨0, _⟩ => show off 0 + 1 * s.val = R.val; omega
  | ⟨1, _⟩ => show off 1 + 1 * l.val = Q.val; omega

/-- The zero offsets of a rank-2 rectangle, as the constant function. -/
theorem zero2 : (![0, 0] : Fin 2 → Nat) = fun _ => 0 := funext fun a => by fin_cases a <;> rfl

/-- A load of a whole buffer through the whole-shape rectangle reads its contents. -/
theorem readAt_whole {Val : EltTy → Type} {sig : RefSig} {κ : Kind} {sp : Space} {S : Shape} {e : EltTy}
    (a : Memref sig κ sp S e) (ha : a.IsWhole) (x : S.Idx → Val e)
    {off : Fin S.rank → Nat} (hz : off = fun _ => 0) (inb : ∀ d, off d + S.size d ≤ S.size d) :
    View.readAt Val a.view (Rect.unit off S.size inb).toLoadRect (ha.unread x) = x := by
  rw [View.readAt_eq_ld, ha.read_unread, View.ld_unit_zero hz]

end Cert.Lib

end
-- ==== Proof.LibColumnBroadcast.lean ====
/-
  A column `[a, 1]` broadcast along its unit axis to `[a, b]`, read at an index: entry `(p, c)` of the
  result is entry `(p, 0)` of the column.  The vector form (`broadcastTo`) and the host form
  (`broadcastInDim` with the axes kept in place) are both given, for any sizes, together with the host
  forms that lift a vector `[b]` to a row `[1, b]`, a row `[1, b]` to `[a, b]`, and a scalar to any shape.
-/
import Idealize.ShloMosaic.Lib.Pipeline.Value
import Idealize.ShloMosaic.Lib.ValueIdx

namespace Cert.LibColumnBroadcast

open Idealize.ShloMosaic Idealize.ShloMosaic.ValueIdx

variable {α : Type}

/-- A column broadcast along its unit axis: entry `(p, c)` is the column's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]`, both axes kept in place. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]`, both axes kept in place. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's lift of a vector `[b]` to a row `[1, b]` along axis 1. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- The host's broadcast of a scalar to any shape: every entry is the scalar. -/
theorem broadcastInDim_scalar_apply {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun a => a.elim0

end Cert.LibColumnBroadcast
-- ==== Proof.ChunkValue.lean ====
/-
  One 128-column chunk of the dequantized block, read at an index.

  The body takes the 512 × 7168 weight block and the 512 × 56 scale block in 56 chunks: chunk `c` is columns
  128·c … 128·c + 127 of the weight block times column `c` of the scale block spread along the 128 columns. Entry
  (r, q) of chunk `c` is therefore `w (r, 128·c + q) · s (r, c)`, which is the block-wide function
  `deq w s (r, k) = w (r, k) · s (r, k / 128)` at column k = 128·c + q. The change of float format before the
  store is the identity on the extended reals.
-/
import proofs.«127336_j18004502905034_2_alg».proof.Proof.Gen.KernelIdeal.Skeleton
import proofs.«127336_j18004502905034_2_alg».proof.Proof.LibLoadAt
import proofs.«127336_j18004502905034_2_alg».proof.Proof.LibColumnBroadcast
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx

/-- The dequantized block: entry (r, k) is the weight block's entry times the scale block's entry at (r, k / 128). -/
def deq (w : Vec Ideal S512x7168 .f32) (s : Vec Ideal S512x56 .f32) : Vec Ideal S512x7168 .bf16 :=
  fun y => w y * s (ix2 (y 0) (⟨(y 1).val / 128, by have : (y 1).val < 7168 := (y 1).isLt; omega⟩ : Fin 56))

/-- Chunk `c` (its weight columns start at `off 1 = 128 · c`, its scale column is `offS 1 = c`) at (r, q). -/
theorem chunk_apply (w : Vec Ideal S512x7168 .f32) (s : Vec Ideal S512x56 .f32) (off offS : Fin 2 → ℕ)
    (inbW : ∀ a, off a + S512x128.size a ≤ S512x7168.size a) (inbS : ∀ a, offS a + S512x1.size a ≤ S512x56.size a)
    (h0 : off 0 = 0) (g0 : offS 0 = 0) (h1 : off 1 = 128 * offS 1) (r : Fin 512) (q : Fin 128) :
    k0_pay2 (View.ld w (Rect.unit (s := S512x7168) off S512x128.size inbW))
        (View.ld s (Rect.unit (s := S512x56) offS S512x1.size inbS)) (ix2 r q)
      = deq w s ((Rect.unit (s := S512x7168) off S512x128.size inbW).emb (ix2 r q)) := by
  have hS : offS 1 < 56 := by have := inbS 1; simp only [S512x1, S512x56] at this; exact by simpa using this
  have hW : off 1 + q.val < 7168 := by have := q.isLt; omega
  unfold k0_pay2
  dsimp only
  rw [shapeCast_self, shapeCast_self, truncf_apply, mulf_apply,
    Cert.LibColumnBroadcast.broadcastTo_a1_ab_apply,
    Cert.Lib.ld_at w off inbW r q r ⟨off 1 + q.val, hW⟩ (by rw [h0]; simp) rfl,
    Cert.Lib.ld_at s offS inbS r (0 : Fin 1) r ⟨offS 1, hS⟩ (by rw [g0]; simp) (by simp)]
  have e : (Rect.unit (s := S512x7168) off S512x128.size inbW).emb (ix2 r q) = ix2 r (⟨off 1 + q.val, hW⟩ : Fin 7168) :=
    funext fun a => Fin.ext (by
      match a with
      | ⟨0, _⟩ => show off 0 + 1 * r.val = r.val; omega
      | ⟨1, _⟩ => show off 1 + 1 * q.val = off 1 + q.val; omega)
  rw [e]
  show _ = w (ix2 r _) * s (ix2 r _)
  congr 2
  funext a; apply Fin.ext
  match a with
  | ⟨0, _⟩ => rfl
  | ⟨1, _⟩ => show offS 1 = (off 1 + q.val) / 128; have := q.isLt; omega

/-- The same at any index of the chunk. -/
theorem chunk_eq (w : Vec Ideal S512x7168 .f32) (s : Vec Ideal S512x56 .f32) (off offS : Fin 2 → ℕ)
    (inbW : ∀ a, off a + S512x128.size a ≤ S512x7168.size a) (inbS : ∀ a, offS a + S512x1.size a ≤ S512x56.size a)
    (h0 : off 0 = 0) (g0 : offS 0 = 0) (h1 : off 1 = 128 * offS 1)
    (x : (Rect.unit (s := S512x7168) off S512x128.size inbW).shape.Idx) :
    k0_pay2 (View.ld w (Rect.unit (s := S512x7168) off S512x128.size inbW))
        (View.ld s (Rect.unit (s := S512x56) offS S512x1.size inbS)) x
      = deq w s ((Rect.unit (s := S512x7168) off S512x128.size inbW).emb x) := by
  obtain ⟨r, q, rfl⟩ : ∃ (r : Fin 512) (q : Fin 128), x = ix2 r q := ⟨x 0, x 1, eq_ix2 x⟩
  exact chunk_apply w s off offS inbW inbS h0 g0 h1 r q

end Cert.KernelIdeal.Body

end
-- ==== Proof.LibFilledBuffer.lean ====
/-
  A buffer filled piece by piece and then read whole, for any shape and any family of element values.

  When the stores into a buffer tile it in blocks of one size, and every store's payload is the restriction of ONE
  function `G` of the buffer's index to its rectangle, a load of the whole buffer afterwards reads `G` — however many
  stores there were and in whatever order they ran.
-/
import Idealize.ShloMosaic.Lib.Ring
import Idealize.ShloMosaic.Lib.Pipeline.FrameBody
import Idealize.ShloMosaic.Lib.Pipeline.Value

noncomputable section

namespace Cert.Lib

open Idealize.ShloMosaic

/-- The whole-buffer load after tiling stores of one function's restrictions reads that function. -/
theorem readCov_tiled_of_pieces {Val : EltTy → Type} [∀ e, Nonempty (Val e)] {sig : RefSig} {κ : Kind} {sp : Space}
    {S : Shape} {e : EltTy} (v : View sig κ sp S e) (G : S.Idx → Val e) (L : List (View.Piece Val S e))
    (size : Fin S.rank → ℕ) (htile : View.Piece.tiledL L size = true)
    (hL : ∀ p ∈ L, ∀ x : p.1.shape.Idx, p.2 x = G (p.1.emb x))
    {off : Fin S.rank → ℕ} (hz : off = fun _ => 0) (inb : ∀ a, off a + S.size a ≤ S.size a) :
    v.readCov L (Rect.unit off S.size inb).toLoadRect = G := by
  rw [View.readCov_eq_canon_ld v L _ (View.cover_of_tiledL L size htile), View.ld_unit_zero hz]
  funext y
  exact View.canon_apply_of_pieces G L hL y (View.cover_of_tiledL L size htile y)

end Cert.Lib

end
-- ==== Proof.LibRowMatmul.lean ====
/-
  General facts at the ideal values, for any sizes.

  A matrix product into the zero accumulator read at an entry, for the two ways a rank-2 pair is contracted here:
  rows against rows (the last axis of both operands: `A · Bᵀ`) and rows against columns (`A · B`). Each is the plain
  finite sum over the contracted coordinate. The dimension numbers are any record with one contracted axis whose
  kept coordinates are the output's; a caller supplies those coordinate facts for its own record.

  And the maximum along the rows of an `a × b` array, and the host's maximum along the last axis of an
  `n0 × n1 × n2` array, each as the fold of `max` from the starting value over the coordinates of that axis.
-/
import Idealize.ShloMosaic.PureOps.Ideal.Laws
import Idealize.ShloMosaic.PureOps.Reduce
import Idealize.ShloMosaic.Lib.ValueIdx

namespace Cert.Lib.RowMatmul

open Idealize.ShloMosaic Idealize.ShloMosaic.ValueIdx

/-- Rows against rows: `(A · Bᵀ)(a, b) = ∑ c, A(a, c) · B(b, c)`. -/
theorem matmul_rows_apply {m k n : ℕ} {φ₁ φ₂ : FTy} (D : DotDims ⟨2, ![m, k]⟩ ⟨2, ![n, k]⟩ ⟨2, ![m, n]⟩)
    (hl : D.lhsContracting = [1]) (hr : D.rhsContracting = [1])
    (hrank : D.contr.rank = 1) (hsize : D.contr.size ⟨0, by omega⟩ = k)
    (h0 : ∀ j q, (D.lhsIdx j q 0).val = (j 0).val) (h1 : ∀ j q, (D.rhsIdx j q 0).val = (j 1).val)
    (prec : Option ContractPrecision) (A : FVec Ideal ⟨2, ![m, k]⟩ φ₁) (B : FVec Ideal ⟨2, ![n, k]⟩ φ₂)
    (a : Fin m) (b : Fin n) :
    matmul D prec A B (constant ⟨2, ![m, n]⟩ .f32 0x00000000#32) (ix2 a b) = ∑ c : Fin k, A (ix2 a c) * B (ix2 b c) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 b c := funext fun ax => Fin.ext (by
    match ax with
    | ⟨0, _⟩ => exact h1 _ _
    | ⟨1, _⟩ => exact (D.rhsIdx_val_of_single hr _ _).trans hk)
  rw [el, er]

/-- Rows against columns: `(A · B)(a, b) = ∑ c, A(a, c) · B(c, b)`. -/
theorem matmul_cols_apply {m k n : ℕ} {φ₁ φ₂ : FTy} (D : DotDims ⟨2, ![m, k]⟩ ⟨2, ![k, n]⟩ ⟨2, ![m, n]⟩)
    (hl : D.lhsContracting = [1]) (hr : D.rhsContracting = [0])
    (hrank : D.contr.rank = 1) (hsize : D.contr.size ⟨0, by omega⟩ = k)
    (h0 : ∀ j q, (D.lhsIdx j q 0).val = (j 0).val) (h1 : ∀ j q, (D.rhsIdx j q 1).val = (j 1).val)
    (prec : Option ContractPrecision) (A : FVec Ideal ⟨2, ![m, k]⟩ φ₁) (B : FVec Ideal ⟨2, ![k, n]⟩ φ₂)
    (a : Fin m) (b : Fin n) :
    matmul D prec A B (constant ⟨2, ![m, n]⟩ .f32 0x00000000#32) (ix2 a b) = ∑ c : Fin k, A (ix2 a c) * B (ix2 c b) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 c b := funext fun ax => Fin.ext (by
    match ax with
    | ⟨0, _⟩ => exact (D.rhsIdx_val_of_single hr _ _).trans hk
    | ⟨1, _⟩ => exact h1 _ _)
  rw [el, er]

/-- The maximum along each row of an `a × b` array: at row `r`, the fold of `max` from the accumulator's value
    over the `b` columns. -/
theorem rowMax_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (fun f => Finset.fold max (Ideal.ofBits φ acc) f (Finset.univ : Finset (Fin b))) ?_
  funext k
  refine congrArg src ?_
  funext ax; apply Fin.ext
  match ax with
  | ⟨0, _⟩ => rfl
  | ⟨1, _⟩ => rfl

/-- The host's maximum along the last axis of an `n0 × n1 × n2` array: at `(p, q)`, the fold of `max` from the
    starting value over the `n2` coordinates. -/
theorem hostLastMax_apply {n0 n1 n2 : ℕ} {φ : FTy} {u : Shape} (x : FVec Ideal ⟨3, ![n0, n1, n2]⟩ φ) (init : u.Idx → Ideal φ)
    (h' : Shape.ReducesTo ⟨3, ![n0, n1, n2]⟩ [2] ⟨2, ![n0, n1]⟩) (h : Shape.Reduces ⟨3, ![n0, n1, n2]⟩ [2] ⟨2, ![n0, n1]⟩)
    (hu : 0 < u.numel) (p : Fin n0) (q : Fin n1) :
    Host.reduce FloatOps.maximumf x init h' hu (ix2 p q)
      = (Finset.univ : Finset (Fin n2)).fold max (init (Shape.Idx.first hu)) (fun k => x (ix3 p q k)) := by
  refine (Host.reduce_eq_fold_single FloatOps.maximumf x init h' h hu (ix2 p q)).trans ?_
  refine congrArg (fun f => Finset.fold max (init (Shape.Idx.first hu)) f (Finset.univ : Finset (Fin n2))) ?_
  funext k
  refine congrArg x ?_
  funext ax; apply Fin.ext
  match ax with
  | ⟨0, _⟩ => rfl
  | ⟨1, _⟩ => rfl
  | ⟨2, _⟩ => rfl

end Cert.Lib.RowMatmul
-- ==== Proof.BodyValue.lean ====
/-
  What one run of the body leaves in its 32 × 512 output block.

  The body fills its 512 × 7168 scratch in 56 chunks of 128 columns, each the product of a weight chunk and a scale
  column; the 56 chunks tile the scratch and each is the restriction of the one function `deq w s`, so the load of
  the whole scratch that follows reads `deq w s`. The matrix product of the 32 × 7168 input block with it,
  contracting the 7168 columns of both, is stored whole: entry (p, r) of the output block is the sum over k of
  `x (p, k) · (w (r, k) · s (r, k / 128))`.
-/
import proofs.«127336_j18004502905034_2_alg».proof.Proof.Gen.KernelIdeal.Frame
import proofs.«127336_j18004502905034_2_alg».proof.Proof.ChunkValue
import proofs.«127336_j18004502905034_2_alg».proof.Proof.LibFilledBuffer
import proofs.«127336_j18004502905034_2_alg».proof.Proof.LibRowMatmul

set_option maxRecDepth 16384

noncomputable section

namespace Cert.KernelIdeal.Body

open Cert.KernelIdeal Cert.KernelIdeal.Gen Idealize.ShloMosaic Idealize.ShloMosaic.TcCoe Idealize.ShloMosaic.Tactic
open Idealize.ShloMosaic.ValueIdx

/-- The output block after the body: the matrix product of the input block with the dequantized block. -/
theorem out_eq (c : Dev nD) (i : grid0.Coords) (arg1 : Memref sig .tc .vmem S32x7168 .bf16) (harg1 : arg1.IsWhole)
    (arg2 : Memref sig .tc .vmem S512x7168 .f32) (harg2 : arg2.IsWhole) (arg3 : Memref sig .tc .vmem S512x56 .f32) (harg3 : arg3.IsWhole)
    (arg4 : Memref sig .tc .vmem S32x512 .f32) (harg4 : arg4.IsWhole) (arg5 : Memref sig .tc .vmem S512x7168 .bf16) (harg5 : arg5.IsWhole)
    (x : Vec Ideal S32x7168 .bf16) (w : Vec Ideal S512x7168 .f32) (s : Vec Ideal S512x56 .f32) :
    out0_A_3 (F := Ideal) c i arg1 harg1 arg2 harg2 arg3 harg3 arg4 harg4 arg5 harg5 x w s = k0_pay1 x (deq w s) := by
  unfold out0_A_3
  rw [View.read_writes_eq_canon _ _ _ (cover0_A_3 c i arg1 harg1 arg2 harg2 arg3 harg3 arg4 harg4 arg5 harg5 x w s)]
  unfold kernelRun0_A
  dsimp only
  sl_unfold_words
  rw [View.canon_unit_zero Cert.Lib.zero2]
  simp only [View.readAt_eq_ld, harg1.read_unread, harg2.read_unread, harg3.read_unread]
  rw [View.ld_unit_zero (S := S32x7168) Cert.Lib.zero2]
  refine congrArg (k0_pay1 x) ?_
  refine Cert.Lib.readCov_tiled_of_pieces _ (deq w s) _ S512x128.size (by sl_kernel_rfl) ?_ Cert.Lib.zero2 _
  repeat' (first
    | exact fun _ h => (List.not_mem_nil h).elim
    | refine List.forall_mem_cons.2 ⟨fun y => ?_, ?_⟩)
  all_goals exact chunk_eq w s _ _ _ _ rfl rfl (by decide) y

/-- The kernel's contraction keeps the input's row: the left operand is read at the output's row. -/
theorem lhs_row (j : S32x512.Idx) (q : dot_S32x7168_S512x7168_S32x512_1_1_0_0_n_n.contr.Idx) :
    (dot_S32x7168_S512x7168_S32x512_1_1_0_0_n_n.lhsIdx j q 0).val = (j 0).val := by
  unfold DotDims.lhsIdx
  rw [dif_neg (show ¬(0 : Fin S32x7168.rank) ∈ dot_S32x7168_S512x7168_S32x512_1_1_0_0_n_n.lhsBatch by decide),
    dif_pos (show (0 : Fin S32x7168.rank) ∈ dot_S32x7168_S512x7168_S32x512_1_1_0_0_n_n.lhsNonContracting by decide)]
  rfl

/-- and the right operand at the row named by the output's column. -/
theorem rhs_row (j : S32x512.Idx) (q : dot_S32x7168_S512x7168_S32x512_1_1_0_0_n_n.contr.Idx) :
    (dot_S32x7168_S512x7168_S32x512_1_1_0_0_n_n.rhsIdx j q 0).val = (j 1).val := by
  unfold DotDims.rhsIdx
  rw [dif_neg (show ¬(0 : Fin S512x7168.rank) ∈ dot_S32x7168_S512x7168_S32x512_1_1_0_0_n_n.rhsBatch by decide),
    dif_pos (show (0 : Fin S512x7168.rank) ∈ dot_S32x7168_S512x7168_S32x512_1_1_0_0_n_n.rhsNonContracting by decide)]
  rfl

/-- The matrix product of the body at (p, r): the sum over the 7168 columns of `x (p, k) · B (r, k)`. -/
theorem product_apply (x : Vec Ideal S32x7168 .bf16) (B : Vec Ideal S512x7168 .bf16) (p : Fin 32) (r : Fin 512) :
    k0_pay1 x B (ix2 p r) = ∑ k : Fin 7168, x (ix2 p k) * B (ix2 r k) := by
  unfold k0_pay1
  rw [shapeCast_self]
  exact Cert.Lib.RowMatmul.matmul_rows_apply (φ₁ := .bf16) (φ₂ := .bf16) dot_S32x7168_S512x7168_S32x512_1_1_0_0_n_n rfl rfl rfl rfl
    lhs_row rhs_row none x B p r

end Cert.KernelIdeal.Body

end
-- ==== Proof.RegionEntry.lean ====
/-
  What the kernel finds in the two arrays prepared for it before it is launched.

  The input array is handed over in a narrower float format: on the extended reals that is the input itself. The
  scale table is repeated 128 times along its rows — spread to 128 × 128 × 56 and folded to 16384 × 56 — so row `o`
  of the repeated table is row `o / 128` of the scale table.
-/
import proofs.«127336_j18004502905034_2_alg».proof.Proof.Gen.KernelIdeal.Frame
import proofs.«127336_j18004502905034_2_alg».proof.Proof.DequantSpec
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo Cert.DequantSpec

variable (m : (ℓ : Loc nD τ sig) → Buf (Elt Ideal) ℓ)

/-- The input in the kernel's operand format is the input. -/
theorem input_entry (c : Dev nD) :
    (V m c main_v2 : S32x7168.Idx → EReal) = m ((c : Thread nD τ).loc main_arg0) := by
  dsimp only [Gen.V, Gen.hostOps0]
  after_results
  rfl

/-- The repeated scale table is the scale table spread over 128 rows per tile and folded. -/
theorem scale_entry (c : Dev nD) :
    (V m c main_v1 : S16384x56.Idx → EReal)
      = shapeCast S16384x56 (broadcastInDim S128x128x56 ![0, 2] bcast_S128x56_S128x128x56_0_2
          (m ((c : Thread nD τ).loc main_arg2))) shapeCasts_S128x128x56_S16384x56 := by
  dsimp only [Gen.V, Gen.hostOps0]
  after_results
  rfl

/-- Row `o` of the repeated table is row `o / 128` of the scale table. -/
theorem scale_entry_apply (c : Dev nD) (o : Fin 16384) (q : Fin 56) :
    (V m c main_v1 : S16384x56.Idx → EReal) (ix2 o q) = m ((c : Thread nD τ).loc main_arg2) (ix2 (rowTile o) q) := by
  have ho : o.val < 16384 := o.isLt
  rw [scale_entry]
  rw [shapeCast_apply _ shapeCasts_S128x128x56_S16384x56 (ix2 o q)
    (ix3 (rowTile o) (⟨o.val % 128, Nat.mod_lt _ (by decide)⟩ : Fin 128) q) (by
      rw [Shape.rowMajor_val_three, Shape.rowMajor_val_two]
      show (o.val / 128 * 128 + o.val % 128) * 56 + q.val = o.val * 56 + q.val
      omega)]
  exact broadcastInDim_apply ![0, 2] bcast_S128x56_S128x128x56_0_2 _ _ (ix2 (rowTile o) q) (fun a => match a with
    | ⟨0, _⟩ => by show o.val / 128 = if (128 : Nat) = 1 then 0 else o.val / 128; rw [if_neg (by decide)]
    | ⟨1, _⟩ => by show q.val = if (56 : Nat) = 1 then 0 else q.val; rw [if_neg (by decide)])

end Cert.KernelIdeal.Entry

end
-- ==== Proof.KernelIsLinear.lean ====
/-
  The kernel computes the block-dequantized linear map.

  The grid has 32 points. At point `t` the body sees the whole 32 × 7168 input, rows 512·t … 512·t + 511 of the
  weight and of the repeated scale table, and writes columns 512·t … 512·t + 511 of the 32 × 16384 result. Entry
  (p, r) of what it writes is the sum over k of `x (p, k) · (w (512·t + r, k) · s ((512·t + r) / 128, k / 128))`:
  entry (p, 512·t + r) of the linear map. The 32 column blocks tile the result, so the result array ends holding the
  linear map of the three arguments.
-/
import proofs.«127336_j18004502905034_2_alg».proof.Proof.Gen.KernelIdeal.Value
import proofs.«127336_j18004502905034_2_alg».proof.Proof.BodyValue
import proofs.«127336_j18004502905034_2_alg».proof.Proof.RegionEntry
import proofs.«127336_j18004502905034_2_alg».proof.Proof.DequantSpec

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.Pipeline (Dat)
open Idealize.ShloMosaic.ValueIdx Cert.DequantSpec Cert.KernelIdeal.Body

/-- Row `r` of the block of 512 rows at grid point `b`, as a row of the whole array. -/
def tileRow (b : Fin 32) (r : Fin 512) : Fin 16384 := ⟨b.val * 512 + r.val, by have := b.isLt; have := r.isLt; omega⟩

/-- One entry of one point's output block, from what the body's three input blocks are: the input itself, and the
    rows of the weight and of the repeated scale table that belong to the point. -/
theorem block_entry (X : S32x7168.Idx → EReal) (Wt : S16384x7168.Idx → EReal) (S0 : S128x56.Idx → EReal)
    (x : Vec Ideal S32x7168 .bf16) (w : Vec Ideal S512x7168 .f32) (s : Vec Ideal S512x56 .f32) (b : Fin 32)
    (hx : ∀ (p : Fin 32) (k : Fin 7168), x (ix2 p k) = X (ix2 p k))
    (hw : ∀ (r : Fin 512) (k : Fin 7168), w (ix2 r k) = Wt (ix2 (tileRow b r) k))
    (hs : ∀ (r : Fin 512) (q : Fin 56), s (ix2 r q) = S0 (ix2 (rowTile (tileRow b r)) q))
    (p : Fin 32) (r : Fin 512) :
    k0_pay1 x (deq w s) (ix2 p r) = linear X Wt S0 (ix2 p (tileRow b r)) := by
  rw [product_apply]
  unfold linear
  refine Finset.sum_congr rfl fun k _ => ?_
  rw [hx]
  show X (ix2 p k) * (w (ix2 r k) * s (ix2 r (colTile k)))
    = X (ix2 p k) * (Wt (ix2 (tileRow b r) k) * S0 (ix2 (rowTile (tileRow b r)) (colTile k)))
  rw [hw, hs]

variable (m : (ℓ : Loc nD τ sig) → Buf (Elt Ideal) ℓ) (ρ : Dev nD → PrngReg)

/-- The printed index maps over the 32 grid points: the input's block never moves, the weight's and the repeated
    scale table's blocks move down the rows with the point, the result's block moves along the columns with it. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

/-- What point `t` writes back is its block of the linear map of the three arguments. -/
theorem flushed_eq (c : Dev nD) (t : Fin cfg0.N) :
    (dats m 0 c).flushed 3 t = ((cfg0.win 3).blk t).view.read (Elt Ideal)
      (linear (m ((c : Thread nD τ).loc main_arg0)) (m ((c : Thread nD τ).loc main_arg1)) (m ((c : Thread nD τ).loc main_arg2))) := by
  obtain ⟨e00, e01, e10, e11, e20, e21, e30, e31⟩ := idx_facts t
  have ht : t.val < 32 := t.isLt
  refine (Value.flushed3_A m c t).trans ?_
  refine (congrArg ((cfg0.win 3).cut (grid0.coords t)) (out_eq c (grid0.coords t) (ms0_0 t) (hs0_0 t) (ms0_1 t) (hs0_1 t)
    (ms0_2 t) (hs0_2 t) (ms0_3 t) (hs0_3 t) scM0_0 (Memref.isWhole_whole _) (iblk m c 0 t) (iblk m c 1 t) (iblk m c 2 t))).trans ?_
  funext j
  obtain ⟨p, r, rfl⟩ : ∃ (p : Fin 32) (r : Fin 512), j = ix2 p r := ⟨j 0, j 1, eq_ix2 (n0 := 32) (n1 := 512) j⟩
  have hemb : ((cfg0.win 3).blk t).view.emb (ix2 p r) = ix2 p (tileRow ⟨t.val, ht⟩ r) := funext fun a => Fin.ext (by
    match a with
    | ⟨0, _⟩ => show win0_3.index t (0 : Fin 2) * 32 + 1 * p.val = p.val; omega
    | ⟨1, _⟩ => show win0_3.index t (1 : Fin 2) * 512 + 1 * r.val = t.val * 512 + r.val; omega)
  show k0_pay1 (iblk m c 0 t) (deq (iblk m c 1 t) (iblk m c 2 t)) (ix2 p r)
    = linear (m ((c : Thread nD τ).loc main_arg0)) (m ((c : Thread nD τ).loc main_arg1)) (m ((c : Thread nD τ).loc main_arg2))
        (((cfg0.win 3).blk t).view.emb (ix2 p r))
  rw [hemb]
  refine block_entry _ _ _ (iblk m c 0 t) (iblk m c 1 t) (iblk m c 2 t) ⟨t.val, ht⟩ ?_ ?_ ?_ p r
  · intro p k
    show V m c main_v2 (((cfg0.win 0).blk t).view.emb (ix2 p k)) = _
    have e : ((cfg0.win 0).blk t).view.emb (ix2 p k) = ix2 p k := funext fun a => Fin.ext (by
      match a with
      | ⟨0, _⟩ => show win0_0.index t (0 : Fin 2) * 32 + 1 * p.val = p.val; omega
      | ⟨1, _⟩ => show win0_0.index t (1 : Fin 2) * 7168 + 1 * k.val = k.val; omega)
    rw [e]
    exact congrFun (Entry.input_entry m c) (ix2 p k)
  · intro r k
    show V m c main_arg1 (((cfg0.win 1).blk t).view.emb (ix2 r k)) = _
    rw [V_main_arg1]
    refine congrArg _ (funext fun a => Fin.ext ?_)
    match a with
    | ⟨0, _⟩ => show win0_1.index t (0 : Fin 2) * 512 + 1 * r.val = t.val * 512 + r.val; omega
    | ⟨1, _⟩ => show win0_1.index t (1 : Fin 2) * 7168 + 1 * k.val = k.val; omega
  · intro r q
    show V m c main_v1 (((cfg0.win 2).blk t).view.emb (ix2 r q)) = _
    have e : ((cfg0.win 2).blk t).view.emb (ix2 r q) = ix2 (tileRow ⟨t.val, ht⟩ r) q := funext fun a => Fin.ext (by
      match a with
      | ⟨0, _⟩ => show win0_2.index t (0 : Fin 2) * 512 + 1 * r.val = t.val * 512 + r.val; omega
      | ⟨1, _⟩ => show win0_2.index t (1 : Fin 2) * 56 + 1 * q.val = q.val; omega)
    rw [e]
    exact Entry.scale_entry_apply m c _ q

/-- An index of the result is in point `t`'s block iff each coordinate is in the block's range on its axis. -/
theorem mem_blk (t : Fin cfg0.N) (i : S32x16384.Idx) :
    i ∈ ((cfg0.win 3).blk t).view.set ↔ ∀ a : Fin 2, win0_3.index t a * S32x512.size a ≤ (i a).val ∧ (i a).val < win0_3.index t a * S32x512.size a + S32x512.size a := by
  show i ∈ ((View.whole main_v3).slice (win0_3.rect t)).set ↔ _
  rw [View.set_slice_whole, Rect.mem_set_unit]
  exact Iff.rfl

/-- Every index of the result lies in the block of the point its column names. -/
theorem cover (i : S32x16384.Idx) : ∃ t : Fin cfg0.N, (cfg0.win 3).flush t = true ∧ i ∈ ((cfg0.win 3).blk t).view.set := by
  have hi0 : (i 0).val < 32 := (i 0).isLt
  have hi1 : (i 1).val < 16384 := (i 1).isLt
  let t : Fin cfg0.N := ⟨(i 1).val / 512, by show (i 1).val / 512 < 32; omega⟩
  obtain ⟨-, -, -, -, -, -, e30, e31⟩ := idx_facts t
  refine ⟨t, flush0_3 t, ?_⟩
  rw [mem_blk]
  intro a
  match a with
  | ⟨0, _⟩ => show win0_3.index t (0 : Fin 2) * 32 ≤ (i 0).val ∧ (i 0).val < win0_3.index t (0 : Fin 2) * 32 + 32; omega
  | ⟨1, _⟩ =>
    show win0_3.index t (1 : Fin 2) * 512 ≤ (i 1).val ∧ (i 1).val < win0_3.index t (1 : Fin 2) * 512 + 512
    have : t.val = (i 1).val / 512 := rfl
    omega

/-- The result array after the run is the linear map of the three arguments. -/
theorem final (c : Dev nD) : (dats m 0 c).arrAt 3 cfg0.N
    = linear (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: the result at the linear map of the arguments, the arguments unchanged. -/
theorem run : θ_run defs (onTc (τ := τ) (main (F := Ideal))) ⟨m, fun _ => 0, ρ⟩ fun r => ∀ c : Dev nD,
      r.2.mem ((c : Thread nD τ).loc main_v3)
        = linear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.RunValue

end
-- ==== Proof.lean ====
/- A linear layer with a block-quantized weight: `y = x · Wᵀ` where `W (o, k) = w (o, k) · s (o / 128, k / 128)`,
   for a 32 × 7168 input `x`, a 16384 × 7168 weight `w` and a 128 × 56 table `s` of one scale per 128 × 128 tile.

   The reference spreads the scale table over the tiles of the weight, multiplies, and contracts the input with the
   product over the 7168 columns. The kernel repeats the scale table 128 times along its rows beforehand, and at
   each of 32 grid points takes 512 rows of the weight and of the repeated table, scales the weight rows 128
   columns at a time into a scratch block, and contracts the whole input with that block: 512 columns of the result.

   On the extended reals (a change of float format is the identity, a matrix product into a zero accumulator is the
   plain sum) both results are, entry by entry, the same sum with the same factors in the same order,
   `∑ k, x (p, k) · (w (o, k) · s (o / 128, k / 128))` (Proof/DequantSpec.lean): the reference by reading its
   operations at an index (Proof/ReferenceIsLinear.lean); the kernel by reading one body run's output block
   (Proof/ChunkValue.lean, Proof/BodyValue.lean), the two arrays the host prepares (Proof/RegionEntry.lean), and the
   32 column blocks that tile the result (Proof/KernelIsLinear.lean). No law of arithmetic is needed, so the
   finiteness of the inputs is never used. The idealization rewrote no operation, so that conjunct is `True`. -/
import proofs.«127336_j18004502905034_2_alg».proof.Defs
import proofs.«127336_j18004502905034_2_alg».proof.Proof.Gen.Kernel
import proofs.«127336_j18004502905034_2_alg».proof.Proof.Gen.Kernel.Skeleton
import proofs.«127336_j18004502905034_2_alg».proof.Proof.Gen.Kernel.Launch
import proofs.«127336_j18004502905034_2_alg».proof.Proof.Gen.Kernel.Points
import proofs.«127336_j18004502905034_2_alg».proof.Proof.Gen.Kernel.Frame
import proofs.«127336_j18004502905034_2_alg».proof.Proof.Gen.KernelIdeal
import proofs.«127336_j18004502905034_2_alg».proof.Proof.Gen.KernelIdeal.Skeleton
import proofs.«127336_j18004502905034_2_alg».proof.Proof.Gen.KernelIdeal.Launch
import proofs.«127336_j18004502905034_2_alg».proof.Proof.Gen.KernelIdeal.Points
import proofs.«127336_j18004502905034_2_alg».proof.Proof.Gen.KernelIdeal.Frame
import proofs.«127336_j18004502905034_2_alg».proof.Proof.Gen.ReferenceIdeal
import proofs.«127336_j18004502905034_2_alg».proof.Proof.Gen.Pre_finite_inputs
import proofs.«127336_j18004502905034_2_alg».proof.Proof.Gen.KernelIdeal.Value
import proofs.«127336_j18004502905034_2_alg».proof.Proof.Gen.ReferenceIdeal.Run
import proofs.«127336_j18004502905034_2_alg».proof.Proof.Gen.ReferenceIdeal.Read
import proofs.«127336_j18004502905034_2_alg».proof.Proof.DequantSpec
import proofs.«127336_j18004502905034_2_alg».proof.Proof.ReferenceIsLinear
import proofs.«127336_j18004502905034_2_alg».proof.Proof.KernelIsLinear
import Idealize.ShloMosaic.Adequacy
import Idealize.ShloMosaic.Init

noncomputable section

namespace Cert.Proof

open Idealize.ShloMosaic Idealize.ShloMosaic.TcCoe Idealize.SL.Sem Cert.DequantSpec

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the result at the block-dequantized
    linear map of those arguments. -/
theorem algebraic : Cert.algebraic_KernelIdeal_ReferenceIdeal := by
  intro m ρ m' ρ' _ hagree
  refine ⟨fun c => linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
